-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S4096x4096 .f32) (main_arg2 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩
abbrev S1x1 : Shape := ⟨2, ![1, 1]⟩
abbrev S1x4096 : Shape := ⟨2, ![1, 4096]⟩
abbrev S8192x4096 : Shape := ⟨2, ![8192, 4096]⟩
abbrev S64x4096 : Shape := ⟨2, ![64, 4096]⟩
abbrev S64 : Shape := ⟨1, ![64]⟩
abbrev S64x1 : Shape := ⟨2, ![64, 1]⟩

abbrev nBuf : Space → Nat
  | .hbm => 29
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .bf16⟩
  | .hbm, ⟨24, _⟩ => ⟨S1x1, .f32⟩
  | .hbm, ⟨25, _⟩ => ⟨S1x4096, .f32⟩
  | .hbm, ⟨26, _⟩ => ⟨S8192x4096, .f32⟩
  | .hbm, ⟨27, _⟩ => ⟨S8192x4096, .f32⟩
  | .hbm, ⟨28, _⟩ => ⟨S4x2048x4096, .f32⟩
  | .local _ .vmem, ⟨0, _⟩ => ⟨S64x4096, .f32⟩
  | .local _ .vmem, ⟨1, _⟩ => ⟨S64x4096, .f32⟩
  | .local _ .vmem, ⟨2, _⟩ => ⟨S4096x4096, .bf16⟩
  | .local _ .vmem, ⟨3, _⟩ => ⟨S1x4096, .f32⟩
  | .local _ .vmem, ⟨4, _⟩ => ⟨S1x1, .f32⟩
  | .local _ .vmem, ⟨5, _⟩ => ⟨S64x4096, .f32⟩
  | .local _ .vmem, ⟨6, _⟩ => ⟨S64x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_3 : Ref sig .tc := ⟨.hbm, 15, rfl⟩
abbrev main_cst_4 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S4096x4096_S_d0_1 : S4096x4096.ReducesTo [0, 1] S_
  h_S_ : 0 < S_.numel
  bcast_S_S4096x4096 : S_.BroadcastsInDim S4096x4096 (![] : Fin 0 → Fin S4096x4096.rank)
  bitsLt_bf16_f32 : FTy.bits .bf16 < FTy.bits .f32
  shapeCasts_S_S1x1 : S_.ShapeCasts S1x1
  shapeCasts_S4096_S1x4096 : S4096.ShapeCasts S1x4096
  shapeCasts_S4x2048x4096_S8192x4096 : S4x2048x4096.ShapeCasts S8192x4096
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  reduces_S64x4096_S64 : S64x4096.Reduces [1] S64
  shapeCasts_S64_S64x1 : S64.ShapeCasts S64x1
  broadcasts_S64x1_S64x4096 : S64x1.Broadcasts S64x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S64x4096 : S1x4096.Broadcasts S64x4096
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  shapeCasts_S8192x4096_S4x2048x4096 : S8192x4096.ShapeCasts S4x2048x4096
  dot_S64x4096_S4096x4096_S64x4096_1_1_0_0_n_n_wf : DotDims.WF S64x4096 S4096x4096 S64x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S8192x4096.size a
  hwx0_0 : ∀ i : grid0.Coords, EltTy.bits .f32 = 32 ∨ (Rect.block (s := S8192x4096) S64x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x4096.size a ≤ S4096x4096.size a
  hwx0_1 : ∀ i : grid0.Coords, EltTy.bits .bf16 = 32 ∨ (Rect.block (s := S4096x4096) S4096x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x4096.size a ≤ S8192x4096.size a
  hwx0_4 : ∀ i : grid0.Coords, EltTy.bits .f32 = 32 ∨ (Rect.block (s := S8192x4096) S64x4096.size (cc0_transform_4 i) (hinb0_4 i)).WholeWords (EltTy.packing .f32)

variable [Facts₀]

def dot_S64x4096_S4096x4096_S64x4096_1_1_0_0_n_n : DotDims S64x4096 S4096x4096 S64x4096 where
  lhsContracting := [1]
  rhsContracting := [1]
  lhsNonContracting := [0]
  rhsNonContracting := [0]
  lhsBatch := []
  rhsBatch := []
  wf := dot_S64x4096_S4096x4096_S64x4096_1_1_0_0_n_n_wf

abbrev win0_0 : Pipeline.Window sig grid0 :=
  Pipeline.Window.ofSpec (Memref.whole main_v12) S64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S4096x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S64x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩

abbrev nBuf : Space → Nat
  | .hbm => 73
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4x2048x4096, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x4096, .f32⟩
  | .hbm, ⟨15, _⟩ => ⟨S4x2048x4096, .f32⟩
  | .hbm, ⟨16, _⟩ => ⟨S1x1x4096, .f32⟩
  | .hbm, ⟨17, _⟩ => ⟨S4x2048x4096, .f32⟩
  | .hbm, ⟨18, _⟩ => ⟨S4x2048x4096, .f32⟩
  | .hbm, ⟨19, _⟩ => ⟨S4096x4096, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S_, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S4x2048x4096, .f32⟩
  | .hbm, ⟨44, _⟩ => ⟨S_, .f32⟩
  | .hbm, ⟨45, _⟩ => ⟨S4x2048, .f32⟩
  | .hbm, ⟨46, _⟩ => ⟨S4x2048x1, .f32⟩
  | .hbm, ⟨47, _⟩ => ⟨S_, .f32⟩
  | .hbm, ⟨48, _⟩ => ⟨S4x2048x1, .f32⟩
  | .hbm, ⟨49, _⟩ => ⟨S4x2048x1, .f32⟩
  | .hbm, ⟨50, _⟩ => ⟨S_, .f32⟩
  | .hbm, ⟨51, _⟩ => ⟨S4x2048x1, .f32⟩
  | .hbm, ⟨52, _⟩ => ⟨S4x2048x1, .f32⟩
  | .hbm, ⟨53, _⟩ => ⟨S4x2048x4096, .f32⟩
  | .hbm, ⟨54, _⟩ => ⟨S4x2048x4096, .f32⟩
  | .hbm, ⟨55, _⟩ => ⟨S4x2048x4096, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S4x2048x4096, .f32⟩
  | .hbm, ⟨60, _⟩ => ⟨S4x2048x4096, .f32⟩
  | .hbm, ⟨61, _⟩ => ⟨S_, .f32⟩
  | .hbm, ⟨62, _⟩ => ⟨S4x2048x4096, .f32⟩
  | .hbm, ⟨63, _⟩ => ⟨S4x2048x4096, .f32⟩
  | .hbm, ⟨64, _⟩ => ⟨S4x2048x4096, .f32⟩
  | .hbm, ⟨65, _⟩ => ⟨S4x2048x4096, .f32⟩
  | .hbm, ⟨66, _⟩ => ⟨S4x2048x4096, .f32⟩
  | .hbm, ⟨67, _⟩ => ⟨S4x2048x4096, .f32⟩
  | .hbm, ⟨68, _⟩ => ⟨S4x2048x4096, .f32⟩
  | .hbm, ⟨69, _⟩ => ⟨S4x2048x1, .f32⟩
  | .hbm, ⟨70, _⟩ => ⟨S4x2048x1, .f32⟩
  | .hbm, ⟨71, _⟩ => ⟨S4x2048x4096, .f32⟩
  | .hbm, ⟨72, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_6 : Ref sig .tc := ⟨.hbm, 31, rfl⟩
abbrev main_cst_7 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_8 : Ref sig .tc := ⟨.hbm, 44, rfl⟩
abbrev main_v27 : Ref sig .tc := ⟨.hbm, 45, rfl⟩
abbrev main_v28 : Ref sig .tc := ⟨.hbm, 46, rfl⟩
abbrev main_cst_9 : Ref sig .tc := ⟨.hbm, 47, rfl⟩
abbrev main_v29 : Ref sig .tc := ⟨.hbm, 48, rfl⟩
abbrev main_v30 : Ref sig .tc := ⟨.hbm, 49, rfl⟩
abbrev main_cst_10 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_11 : Ref sig .tc := ⟨.hbm, 56, rfl⟩
abbrev main_cst_12 : Ref sig .tc := ⟨.hbm, 57, rfl⟩
abbrev main_call3_v0 : Ref sig .tc := ⟨.hbm, 58, rfl⟩
abbrev main_call3_v1 : Ref sig .tc := ⟨.hbm, 59, rfl⟩
abbrev main_call3_v2 : Ref sig .tc := ⟨.hbm, 60, rfl⟩
abbrev main_call3_v3 : Ref sig .tc := ⟨.hbm, 61, rfl⟩
abbrev main_call3_v4 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩

abbrev nD : Nat := 1
abbrev τ : Topo := Topo.v7x

variable {F : FTy → Type} [FloatOps F]

class Facts₀ : Prop where
  reducesTo_S4x2048x4096_S4x2048_d2 : S4x2048x4096.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x4096_0_1_2 : S4x2048x1.BroadcastsInDim S4x2048x4096 (![0, 1, 2] : Fin 3 → Fin S4x2048x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  reducesTo_S4096x4096_S_d0_1 : S4096x4096.ReducesTo [0, 1] S_
  bcast_S_S4096x4096 : S_.BroadcastsInDim S4096x4096 (![] : Fin 0 → Fin S4096x4096.rank)
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.LibRealValued.lean ====
/-
  Extended reals that are real numbers.

  On the extended reals the laws that cancel or distribute fail at the infinities, so a value proof that needs one
  first shows that the quantities involved are real. This file has the predicate "is a real number", its closure under
  the operations float programs are read with (sum, product, negation, maximum, absolute value, finite sums, a quotient
  by a nonzero real), and two uses: adding a real v to (q − v) gives q, for every extended real q (a straight-through
  quantisation step "v + (q − v)" returns q); and an entry whose absolute value compares below +∞, as a finiteness
  precondition states it, is a real number.
-/
import Idealize.ShloMosaic.PureOps.Ideal

noncomputable section

namespace Cert.LibRealValued

open Idealize.ShloMosaic

/-- An extended real that is a real number. -/
def IsReal (a : EReal) : Prop := ∃ r : ℝ, a = (r : EReal)

/-- The inclusion of the reals preserves maxima. -/
theorem coe_max (r s : ℝ) : ((Max.max r s : ℝ) : EReal) = Max.max (r : EReal) (s : EReal) :=
  EReal.coe_strictMono.monotone.map_max

theorem IsReal.coe (r : ℝ) : IsReal (r : EReal) := ⟨r, rfl⟩

theorem IsReal.add {a b : EReal} : IsReal a → IsReal b → IsReal (a + b)
  | ⟨r, hr⟩, ⟨s, hs⟩ => ⟨r + s, by rw [hr, hs, EReal.coe_add]⟩

theorem IsReal.mul {a b : EReal} : IsReal a → IsReal b → IsReal (a * b)
  | ⟨r, hr⟩, ⟨s, hs⟩ => ⟨r * s, by rw [hr, hs, EReal.coe_mul]⟩

theorem IsReal.neg {a : EReal} : IsReal a → IsReal (-a)
  | ⟨r, hr⟩ => ⟨-r, by rw [hr, EReal.coe_neg]⟩

theorem IsReal.max {a b : EReal} : IsReal a → IsReal b → IsReal (Max.max a b)
  | ⟨r, hr⟩, ⟨s, hs⟩ => ⟨Max.max r s, by rw [hr, hs, coe_max]⟩

/-- The absolute value, as the ideal reading of a float absolute value spells it. -/
theorem IsReal.abs {a : EReal} (h : IsReal a) : IsReal (Max.max a (-a)) := h.max h.neg

/-- A finite sum of reals is real. -/
theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

theorem IsReal.lt_top {a : EReal} : IsReal a → a < ⊤
  | ⟨r, hr⟩ => hr ▸ EReal.coe_lt_top r

/-- A quotient by a nonzero real is real. -/
theorem IsReal.div {a : EReal} {y : ℝ} (ha : IsReal a) (hy : y ≠ 0) : IsReal (Ideal.div a (y : EReal)) := by
  rw [Ideal.div_coe hy]; exact ha.mul ⟨_, rfl⟩

/-- Adding a real number to "q minus that number" gives q, for any extended real q. -/
theorem add_sub_cancel_real {a : EReal} (ha : IsReal a) (q : EReal) : a + (q - a) = q := by
  obtain ⟨r, rfl⟩ := ha
  induction q using EReal.rec with
  | bot => simp
  | top => simp
  | coe s => rw [← EReal.coe_sub, ← EReal.coe_add]; congr 1; ring

/-- An f32 entry whose absolute value compares below +∞ (the comparison a finiteness precondition makes, at the ideal
    values) is a real number. -/
theorem real_of_abs_lt_inf (a : Ideal .f32)
    (h : FloatOps.cmpf .olt (FloatOps.hostAbsf a) (FloatOps.ofBits (F := Ideal) .f32 0x7F800000#32) = 1#1) : IsReal a := by
  have htop : Ideal.ofBits .f32 0x7F800000#32 = ⊤ := by simp [Ideal.ofBits, Ideal.ieee]
  change Ideal.cmp .olt (Max.max (a : EReal) (-(a : EReal))) (Ideal.ofBits .f32 0x7F800000#32) = 1#1 at h
  rw [htop] at h
  unfold Ideal.cmp at h
  have hlt : Max.max (a : EReal) (-(a : EReal)) < ⊤ := by
    by_contra hn
    simp [hn] at h
  rw [max_lt_iff] at hlt
  induction a using EReal.rec with
  | bot => simp at hlt
  | top => simp at hlt
  | coe r => exact ⟨r, rfl⟩

end Cert.LibRealValued

end
-- ==== Proof.RowQuant.lean ====
/-
  The arithmetic of a layer that normalises each row by its root mean square, quantises the normalised row to
  eight-bit integers with a per-row scale, quantises the weight matrix to the three values -1, 0, 1 with one global
  scale, multiplies the two quantised matrices and divides the product by both scales — stated once, on the extended
  reals, over a row of 4096 entries.

  Besides the definitions this file proves the one fact about them that needs the inputs to be finite: the products
  that are rounded (a weight times the weight scale, a normalised entry times the row's scale) are real numbers — so
  that adding such a product to "the rounded value minus the product" gives back the rounded value.
-/
import Idealize.ShloMosaic.PureOps.Ideal
import Idealize.ShloMosaic.Lib.ValueIdx
import proofs.«123653_j6047313952927_1_alg».proof.Proof.LibRealValued

noncomputable section

namespace Cert.RowQuant

open Idealize.ShloMosaic Idealize.ShloMosaic.ValueIdx Cert.LibRealValued

/-- The extended real a 32-bit float pattern denotes. -/
abbrev lit (b : BitVec 32) : EReal := Ideal.ofBits .f32 b

/-! ## The patterns the layer spells -/

theorem lit_zero : lit 0x00000000#32 = 0 := by
  simp [Ideal.ofBits, Ideal.ieee]

theorem lit_4096 : lit 0x45800000#32 = ((4096 : ℝ) : EReal) := by
  simp [Ideal.ofBits, Ideal.ieee, -EReal.coe_mul]; norm_num

theorem lit_2p24 : lit 0x4B800000#32 = ((16777216 : ℝ) : EReal) := by
  simp [Ideal.ofBits, Ideal.ieee, -EReal.coe_mul]; norm_num

theorem lit_127 : lit 0x42FE0000#32 = ((127 : ℝ) : EReal) := by
  simp [Ideal.ofBits, Ideal.ieee, -EReal.coe_mul]; norm_num

theorem lit_one : lit 0x3F800000#32 = ((1 : ℝ) : EReal) := by
  simp [Ideal.ofBits, Ideal.ieee, -EReal.coe_mul]; norm_num

theorem lit_neg_inf : lit 0xFF800000#32 = ⊥ := by
  simp [Ideal.ofBits, Ideal.ieee]

/-- The small positive constant (the float nearest 1e-5) is a positive real. -/
theorem lit_eps : ∃ e : ℝ, 0 < e ∧ lit 0x3727C5AC#32 = (e : EReal) := by
  refine ⟨10995116 * (2 : ℝ) ^ (-40 : ℤ), by positivity, ?_⟩
  simp [Ideal.ofBits, Ideal.ieee, -EReal.coe_mul]

/-! ## The layer, entry by entry -/

/-- The sum of the squares of a row. -/
def sumSq (r : Fin 4096 → EReal) : EReal := ∑ k : Fin 4096, r k * r k

/-- One over the root of (the mean square plus the small constant). -/
def invRms (r : Fin 4096 → EReal) : EReal :=
  Ideal.rsqrt (Ideal.div (sumSq r) (lit 0x45800000#32) + lit 0x3727C5AC#32)

/-- The normalised row, times the gain. -/
def normed (r g : Fin 4096 → EReal) (k : Fin 4096) : EReal := r k * invRms r * g k

/-- The largest absolute value of the normalised row (a fold of max from -∞). -/
def absMax (r g : Fin 4096 → EReal) : EReal :=
  Finset.univ.fold max (lit 0xFF800000#32) fun k : Fin 4096 => max (normed r g k) (-(normed r g k))

/-- The row's scale: 127 over the largest absolute value, floored at the small constant. -/
def actScale (r g : Fin 4096 → EReal) : EReal :=
  Ideal.div (lit 0x42FE0000#32) (max (absMax r g) (lit 0x3727C5AC#32))

/-- The row quantised: scaled, rounded half to even, clipped to [-128, 127]. -/
def actQuant (r g : Fin 4096 → EReal) (k : Fin 4096) : EReal :=
  min (lit 0x42FE0000#32) (max (lit 0xC3000000#32) (Ideal.liftRound Ideal.roundHalfEven (normed r g k * actScale r g)))

/-- The weights' scale: one over the mean absolute weight, floored at the small constant. -/
def wtScale (W : (⟨2, ![4096, 4096]⟩ : Shape).Idx → EReal) : EReal :=
  Ideal.div (lit 0x3F800000#32)
    (max (Ideal.div (lit 0x00000000#32 + ∑ i, max (W i) (-(W i))) (lit 0x4B800000#32)) (lit 0x3727C5AC#32))

/-- A weight quantised: scaled, rounded half to even, clipped to [-1, 1]. -/
def wtQuant (W : (⟨2, ![4096, 4096]⟩ : Shape).Idx → EReal) (i : (⟨2, ![4096, 4096]⟩ : Shape).Idx) : EReal :=
  min (lit 0x3F800000#32) (max (lit 0xBF800000#32) (Ideal.liftRound Ideal.roundHalfEven (W i * wtScale W)))

/-- One output entry: the quantised row against one quantised weight row, over the product of the two scales. -/
def outEntry (r g wrow : Fin 4096 → EReal) (ws : EReal) : EReal :=
  Ideal.div (∑ k : Fin 4096, actQuant r g k * wrow k) (ws * actScale r g)

/-- The whole result, over the three argument arrays. -/
def result (x : (⟨3, ![4, 2048, 4096]⟩ : Shape).Idx → EReal) (W : (⟨2, ![4096, 4096]⟩ : Shape).Idx → EReal)
    (g : (⟨1, ![4096]⟩ : Shape).Idx → EReal) (i : (⟨3, ![4, 2048, 4096]⟩ : Shape).Idx) : EReal :=
  outEntry (fun k => x (ix3 (i 0) (i 1) k)) (fun k => g (ix1 k)) (fun k => wtQuant W (ix2 (i 2) k)) (wtScale W)

/-! ## Real values -/

/-- Under the floor the maximum is a positive real whenever the other side is below +∞. -/
theorem floored {a : EReal} (ha : a < ⊤) : ∃ y : ℝ, 0 < y ∧ max a (lit 0x3727C5AC#32) = (y : EReal) := by
  obtain ⟨e, he, hlit⟩ := lit_eps
  rw [hlit]
  induction a using EReal.rec with
  | bot => exact ⟨e, he, max_eq_right bot_le⟩
  | top => exact absurd ha (lt_irrefl _)
  | coe r => exact ⟨Max.max r e, lt_max_of_lt_right he, (coe_max r e).symm⟩

/-- The weights' scale is real when the weights are. -/
theorem wtScale_real (W : (⟨2, ![4096, 4096]⟩ : Shape).Idx → EReal) (hW : ∀ i, IsReal (W i)) : IsReal (wtScale W) := by
  unfold wtScale
  have hsum : IsReal (lit 0x00000000#32 + ∑ i, Max.max (W i) (-(W i))) := by
    rw [lit_zero, zero_add]; exact IsReal.sum _ _ fun i => (hW i).abs
  have hmean := (lit_2p24 ▸ hsum.div (y := 16777216) (by norm_num) :
    IsReal (Ideal.div (lit 0x00000000#32 + ∑ i, Max.max (W i) (-(W i))) (lit 0x4B800000#32)))
  obtain ⟨y, hy, he⟩ := floored hmean.lt_top
  rw [he, lit_one]
  exact IsReal.div ⟨1, rfl⟩ hy.ne'

/-- A weight times the weights' scale is real. -/
theorem wtRaw_real (W : (⟨2, ![4096, 4096]⟩ : Shape).Idx → EReal) (hW : ∀ i, IsReal (W i)) (i) :
    IsReal (W i * wtScale W) := (hW i).mul (wtScale_real W hW)

/-- One over the root mean square is real for a real row. -/
theorem invRms_real (r : Fin 4096 → EReal) (hr : ∀ k, IsReal (r k)) : IsReal (invRms r) := by
  choose f hf using hr
  obtain ⟨e, he, hlit⟩ := lit_eps
  have hs : sumSq r = ((∑ k : Fin 4096, f k * f k : ℝ) : EReal) := by
    unfold sumSq
    have : ∀ s : Finset (Fin 4096), ∑ k ∈ s, r k * r k = ((∑ k ∈ s, f k * f k : ℝ) : EReal) := by
      intro s
      induction s using Finset.induction_on with
      | empty => simp
      | insert a s ha ih => rw [Finset.sum_insert ha, Finset.sum_insert ha, ih, hf a, EReal.coe_add, EReal.coe_mul]
    exact this _
  unfold invRms
  rw [hs, lit_4096, Ideal.div_coe (by norm_num : (4096 : ℝ) ≠ 0), hlit, ← EReal.coe_mul, ← EReal.coe_add]
  have hpos : 0 < (∑ k : Fin 4096, f k * f k) * (1 / 4096) + e :=
    add_pos_of_nonneg_of_pos (mul_nonneg (Finset.sum_nonneg fun k _ => mul_self_nonneg _) (by norm_num)) he
  rw [Ideal.rsqrt_coe, if_neg (not_lt.2 hpos.le), if_neg hpos.ne']
  exact ⟨_, rfl⟩

theorem normed_real (r g : Fin 4096 → EReal) (hr : ∀ k, IsReal (r k)) (hg : ∀ k, IsReal (g k)) (k : Fin 4096) :
    IsReal (normed r g k) := ((hr k).mul (invRms_real r hr)).mul (hg k)

/-- The row's scale is real for a real row and gain. -/
theorem actScale_real (r g : Fin 4096 → EReal) (hr : ∀ k, IsReal (r k)) (hg : ∀ k, IsReal (g k)) : IsReal (actScale r g) := by
  unfold actScale
  have hlt : absMax r g < ⊤ := by
    unfold absMax
    rw [Finset.fold_max_lt]
    exact ⟨by rw [lit_neg_inf]; exact bot_lt_top, fun k _ => (normed_real r g hr hg k).abs.lt_top⟩
  obtain ⟨y, hy, he⟩ := floored hlt
  rw [he, lit_127]
  exact IsReal.div ⟨127, rfl⟩ hy.ne'

/-- A normalised entry times the row's scale is real. -/
theorem actRaw_real (r g : Fin 4096 → EReal) (hr : ∀ k, IsReal (r k)) (hg : ∀ k, IsReal (g k)) (k : Fin 4096) :
    IsReal (normed r g k * actScale r g) := (normed_real r g hr hg k).mul (actScale_real r g hr hg)

end Cert.RowQuant

end
-- ==== Proof.LibColumn.lean ====
/-
  A sum kept as a column: the two layout steps every `sum(axis=1, keepdims=True)` meets, read at an index.

  A vector of `a` entries viewed as an `a × 1` column has, at `(i, 0)`, the vector's entry `i`; and an `a × 1`
  column repeated along `b` columns has, at `(p, c)`, the column's entry `p`.  (Their companions for a row — a
  vector viewed `1 × a`, a `1 × b` row repeated along `a` rows — are in the library's layout file.)
-/
import Idealize.ShloMosaic.Lib.ValueIdx
import Idealize.ShloMosaic.Lib.ValueLayout
import Idealize.ShloMosaic.Lib.Pipeline.Value

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibRowOps.lean ====
/-
  Row-wise operations read at an index, at the ideal values.

  * the sum of a matrix along its second axis, as a kernel's lane reduction and as the host's reduce: at row `p` it is
    the sum over `k` of the entries `(p, k)` (the host's with its initial value in front);
  * a product of an `a × b` by a `b × c` matrix contracting the one shared axis, as a kernel's matrix product into a
    zero accumulator and as the host's dot product: at `(p, n)` it is the sum over `k` of `l (p, k) * r (k, n)`;
  * "keep the entry if it is at least zero, else take the other value", as comparison and select compute it;
  * the host's broadcasts of a scalar, of a vector to a column, of a vector to a row, of a column along columns and
    of a row along rows.
-/
import Idealize.ShloMosaic.Lib.ValueIdx
import Idealize.ShloMosaic.Lib.ValueLayout
import Idealize.ShloMosaic.Lib.Pipeline.Value
import Idealize.ShloMosaic.PureOps.Ideal.Laws

namespace Cert.LibRowOps

open Idealize.ShloMosaic Idealize.ShloMosaic.ValueIdx

/-! ## Row sums -/

/-- The index a row reduction lifts `(p)` and the position `k` to is `(p, k)`. -/
theorem lift_row {a b : ℕ} (h : (⟨2, ![a, b]⟩ : Shape).Reduces [1] ⟨1, ![a]⟩) (p : Fin a) (k : Fin b) :
    h.lift (ix1 p) k = ix2 p k := by
  funext c
  apply Fin.ext
  show h.liftVal (ix1 p) k.val c = (ix2 p k c).val
  match c with
  | ⟨0, _⟩ => simp [Shape.Reduces.liftVal]
  | ⟨1, _⟩ => simp [Shape.Reduces.liftVal]

/-- A kernel's lane sum of an `a × b` block, at row `p`: the sum of the row's entries. -/
theorem multiReduction_row_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The host's sum of an `a × b` array along its rows, at row `p`: the initial value plus the sum of the row's entries. -/
theorem hostReduceAdd_row_apply {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ k : Fin b, x (ix2 p k) :=
  (Ideal.hostReduceAdd_single h' h x init (ix1 p)).trans
    (congrArg (init + ·) (Finset.sum_congr rfl fun k _ => congrArg x (lift_row h p k)))

/-! ## One shared axis contracted -/

/-- The contraction's sum re-indexed by the shared axis's coordinate, when the operand indices at an output index
    `(p, n)` and a contraction position `k` are `(p, k)` and `(k, n)`. -/
theorem sum_contr {a b c : ℕ} (D : DotDims ⟨2, ![a, b]⟩ ⟨2, ![b, c]⟩ ⟨2, ![a, c]⟩) (hrk : D.contr.rank = 1)
    (hsz : D.contr.size ⟨0, by omega⟩ = b)
    (hl0 : ∀ j k, (D.lhsIdx j k (0 : Fin 2)).val = (j (0 : Fin 2)).val)
    (hl1 : ∀ j k, (D.lhsIdx j k (1 : Fin 2)).val = (k ⟨0, by omega⟩).val)
    (hr0 : ∀ j k, (D.rhsIdx j k (0 : Fin 2)).val = (k ⟨0, by omega⟩).val)
    (hr1 : ∀ j k, (D.rhsIdx j k (1 : Fin 2)).val = (j (1 : Fin 2)).val)
    (l : (⟨2, ![a, b]⟩ : Shape).Idx → EReal) (r : (⟨2, ![b, c]⟩ : Shape).Idx → EReal) (p : Fin a) (n : Fin c) :
    ∑ k : D.contr.Idx, l (D.lhsIdx (ix2 p n) k) * r (D.rhsIdx (ix2 p n) k) = ∑ k : Fin b, l (ix2 p k) * r (ix2 k n) := by
  rw [← Equiv.sum_comp (contrEquiv1 D b hrk hsz).symm]
  refine Finset.sum_congr rfl fun k _ => ?_
  have e1 : D.lhsIdx (ix2 p n) ((contrEquiv1 D b hrk hsz).symm k) = ix2 p k := by
    funext ax
    apply Fin.ext
    match ax with
    | ⟨0, _⟩ => exact hl0 _ _
    | ⟨1, _⟩ => exact (hl1 _ _).trans (contrEquiv1_symm_val D b hrk hsz k)
  have e2 : D.rhsIdx (ix2 p n) ((contrEquiv1 D b hrk hsz).symm k) = ix2 k n := by
    funext ax
    apply Fin.ext
    match ax with
    | ⟨0, _⟩ => exact (hr0 _ _).trans (contrEquiv1_symm_val D b hrk hsz k)
    | ⟨1, _⟩ => exact hr1 _ _
  rw [e1, e2]

/-! ## Keep what is at least zero -/

/-- The select on "at least the zero word": the entry itself when it is at least zero, the other value otherwise. -/
theorem select_oge_zero (v w : EReal) :
    Scalar.select (FloatOps.cmpf (F := Ideal) (φ := .f32) .oge v (Ideal.ofBits .f32 0x00000000#32)) v w
      = if (0 : EReal) ≤ v then v else w := by
  rw [Ideal.cmpf_def, Ideal.ofBits_zero_f32]
  unfold Ideal.cmp Scalar.select
  by_cases h : (0 : EReal) ≤ v
  · simp [h]
  · simp [h]

/-! ## The host's broadcasts -/

section
variable {α : Type}

/-- A scalar broadcast to any shape reads the scalar. -/
theorem broadcastInDim_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- A vector of `a` entries broadcast to an `a × 1` column reads, at `(p, u)`, entry `p`. -/
theorem broadcastInDim_a_a1_apply {a : ℕ} (h : (⟨1, ![a]⟩ : Shape).BroadcastsInDim ⟨2, ![a, 1]⟩ (![0] : Fin 1 → Fin 2))
    (x : (⟨1, ![a]⟩ : Shape).Idx → α) (p : Fin a) (u : Fin 1) : broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A vector of `b` entries broadcast to a `1 × b` row reads, at `(u, q)`, entry `q`. -/
theorem broadcastInDim_b_1b_apply {b : ℕ} (h : (⟨1, ![b]⟩ : Shape).BroadcastsInDim ⟨2, ![1, b]⟩ (![1] : Fin 1 → Fin 2))
    (x : (⟨1, ![b]⟩ : Shape).Idx → α) (u : Fin 1) (q : Fin b) : broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- An `a × 1` column broadcast along `b` columns reads, at `(p, q)`, the column's entry `p`. -/
theorem broadcastInDim_a1_ab_apply {a b : ℕ} (h : (⟨2, ![a, 1]⟩ : Shape).BroadcastsInDim ⟨2, ![a, b]⟩ (![0, 1] : Fin 2 → Fin 2))
    (x : (⟨2, ![a, 1]⟩ : Shape).Idx → α) (p : Fin a) (q : Fin b) :
    broadcastInDim ⟨2, ![a, b]⟩ ![0, 1] h x (ix2 p q) = x (ix2 p (0 : Fin 1)) := by
  refine broadcastInDim_apply _ h x (ix2 p q) (ix2 p (0 : Fin 1)) fun ax => ?_
  match ax with
  | ⟨0, _⟩ =>
    show p.val = if a = 1 then 0 else p.val
    split
    · have := p.isLt; omega
    · rfl
  | ⟨1, _⟩ => rfl

/-- A `1 × b` row broadcast along `a` rows reads, at `(p, q)`, the row's entry `q`. -/
theorem broadcastInDim_1b_ab_apply {a b : ℕ} (h : (⟨2, ![1, b]⟩ : Shape).BroadcastsInDim ⟨2, ![a, b]⟩ (![0, 1] : Fin 2 → Fin 2))
    (x : (⟨2, ![1, b]⟩ : Shape).Idx → α) (p : Fin a) (q : Fin b) :
    broadcastInDim ⟨2, ![a, b]⟩ ![0, 1] h x (ix2 p q) = x (ix2 (0 : Fin 1) q) := by
  refine broadcastInDim_apply _ h x (ix2 p q) (ix2 (0 : Fin 1) q) fun ax => ?_
  match ax with
  | ⟨0, _⟩ => rfl
  | ⟨1, _⟩ =>
    show q.val = if b = 1 then 0 else q.val
    split
    · have := q.isLt; omega
    · rfl

end

end Cert.LibRowOps
-- ==== Proof.LibRowMax.lean ====
/-
  A maximum taken along the last axis, read at an index, at the ideal values.

  The largest entry of each row of an a × b block, as a kernel's lane reduction computes it, is at row p the fold of
  max, from the value the accumulator's pattern denotes, over the entries (p, k); and the host's reduce with a maximum
  body over the last axis of an a × b × c array is at (p, q) the fold of max, from the initial value, over the entries
  (p, q, k). (The companions for sums are in the file of row operations this one imports.)
-/
import Idealize.ShloMosaic.Lib.ValueIdx
import Idealize.ShloMosaic.PureOps.Ideal.Laws
import Idealize.ShloMosaic.PureOps.Reduce
import proofs.«123653_j6047313952927_1_alg».proof.Proof.LibRowOps

noncomputable section

namespace Cert.LibRowMax

open Idealize.ShloMosaic Idealize.ShloMosaic.ValueIdx

/-- The index a reduction over the last of three axes lifts (p, q) and the position k to is (p, q, k). -/
theorem lift_last {a b c : ℕ} (h : (⟨3, ![a, b, c]⟩ : Shape).Reduces [2] ⟨2, ![a, b]⟩) (p : Fin a) (q : Fin b) (k : Fin c) :
    h.lift (ix2 p q) k = ix3 p q k := by
  funext d
  apply Fin.ext
  show h.liftVal (ix2 p q) k.val d = (ix3 p q k d).val
  match d with
  | ⟨0, _⟩ => simp [Shape.Reduces.liftVal]
  | ⟨1, _⟩ => simp [Shape.Reduces.liftVal]
  | ⟨2, _⟩ => simp [Shape.Reduces.liftVal]

/-- A kernel's lane maximum of an a × b block, at row p: the fold of max over the row's entries. -/
theorem multiReduction_maximumf_row_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) fun k => src (ix2 p k) :=
  (Ideal.multiReduction_maximumf_single src acc h hφ hacc (ix1 p)).trans
    (congrArg (fun f : Fin b → EReal => Finset.univ.fold max (Ideal.ofBits φ acc) f)
      (funext fun k => congrArg src (Cert.LibRowOps.lift_row h p k)))

/-- The host's reduce with a maximum body over the last axis of an a × b × c array, at (p, q): the fold of max, from
    the initial value, over the entries (p, q, k). -/
theorem hostReduce_maximumf_last_apply {a b c : ℕ} {φ : FTy} {u : Shape} (x : FVec Ideal ⟨3, ![a, b, c]⟩ φ)
    (init : u.Idx → Ideal φ) (h' : (⟨3, ![a, b, c]⟩ : Shape).ReducesTo [2] ⟨2, ![a, b]⟩)
    (h : (⟨3, ![a, b, c]⟩ : Shape).Reduces [2] ⟨2, ![a, b]⟩) (hu : 0 < u.numel) (p : Fin a) (q : Fin b) :
    Host.reduce FloatOps.maximumf x init h' hu (ix2 p q)
      = (Finset.univ : Finset (Fin c)).fold max (init (Shape.Idx.first hu)) fun k => x (ix3 p q k) :=
  (Host.reduce_eq_fold_single FloatOps.maximumf x init h' h hu (ix2 p q)).trans
    (congrArg (fun f : Fin c → EReal => Finset.univ.fold max (init (Shape.Idx.first hu)) f)
      (funext fun k => congrArg x (lift_last h p q k)))

end Cert.LibRowMax

end
-- ==== Proof.LibMatmulZero.lean ====
/-
  A matrix product into a zero accumulator, read at one output index, at the extended reals.

  `matmul_zero_apply`: for a product that contracts ONE axis of extent `K`, the entry at an output index `j` is the sum
  over `k : Fin K` of the left operand at `li k` times the right operand at `ri k`, for ANY naming `li`, `ri` of the two
  operand indices whose coordinates are the product's own at `j` and the contracted position `k` (two per-axis
  hypotheses, closed at literal shapes by the dimension numbers' facts). It re-indexes the product's sum over its
  contraction shape to a sum over `Fin K`, so that a value proof can state a layer as `∑ k, a k * W k j`.
-/
import Idealize.ShloMosaic.Lib.ValueIdx
import Idealize.ShloMosaic.PureOps.Ideal.Laws

noncomputable section

namespace Cert.LibMatmulZero

open Idealize.ShloMosaic Idealize.ShloMosaic.ValueIdx

/-- A product contracting ONE axis of extent `K`, into the zero accumulator, read at an output index `j`: the sum over
    `k` of the left operand at `li k` times the right at `ri k`, for any naming `li`, `ri` of the operand indices whose
    coordinates are the product's own (`hl`, `hr'`). -/
theorem matmul_zero_apply {sl sr so : Shape} {φ₁ φ₂ : FTy} (d : DotDims sl sr so) (K : Nat) (hr : d.contr.rank = 1)
    (hs : d.contr.size ⟨0, by omega⟩ = K) (A : FVec Ideal sl φ₁) (B : FVec Ideal sr φ₂) (j : so.Idx)
    (li : Fin K → sl.Idx) (ri : Fin K → sr.Idx)
    (hl : ∀ k a, (d.lhsIdx j ((contrEquiv1 d K hr hs).symm k) a).val = (li k a).val)
    (hr' : ∀ k a, (d.rhsIdx j ((contrEquiv1 d K hr hs).symm k) a).val = (ri k a).val) :
    FloatOps.matmul d none A B (constant so .f32 0x00000000#32) j = ∑ k : Fin K, A (li k) * B (ri k) := by
  refine (Ideal.matmul_constant_zero_apply d none A B j).trans ?_
  rw [← Equiv.sum_comp (contrEquiv1 d K hr hs).symm]
  refine Finset.sum_congr rfl fun k _ => ?_
  rw [show d.lhsIdx j ((contrEquiv1 d K hr hs).symm k) = li k from funext fun a => Fin.ext (hl k a),
    show d.rhsIdx j ((contrEquiv1 d K hr hs).symm k) = ri k from funext fun a => Fin.ext (hr' k a)]

end Cert.LibMatmulZero

end
-- ==== Proof.LibMatmulRhsT.lean ====
/-
  A matrix product whose right operand is stored transposed, into a zero accumulator, read at an index, at the ideal
  values.

  For an `a × b` left operand and a `c × b` right operand (dimension numbers: contract the left's axis 1 with the
  right's axis 1, no batch axes — `A · Bᵀ`), entry `(p, n)` of the product is `Σ_k A(p, k) · B(n, k)`: the sum of the
  exact products, the zero the accumulator starts from adding nothing.
-/
import Idealize.ShloMosaic.Lib.ValueIdx
import Idealize.ShloMosaic.PureOps.Ideal.Laws
import proofs.«123653_j6047313952927_1_alg».proof.Proof.LibMatmulZero

noncomputable section

namespace Cert.LibMatmulRhsT

open Idealize.ShloMosaic Idealize.ShloMosaic.ValueIdx

variable {a b c : ℕ}

/-- The dimension numbers of an `a × b` by (`c × b`)ᵀ product over the shared axis. -/
abbrev rhsTDims (wf : DotDims.WF ⟨2, ![a, b]⟩ ⟨2, ![c, b]⟩ ⟨2, ![a, c]⟩ [1] [1] [0] [0] [] []) :
    DotDims ⟨2, ![a, b]⟩ ⟨2, ![c, b]⟩ ⟨2, ![a, c]⟩ where
  lhsContracting := [1]
  rhsContracting := [1]
  lhsNonContracting := [0]
  rhsNonContracting := [0]
  lhsBatch := []
  rhsBatch := []
  wf := wf

/-- THE PRODUCT READ AT `(p, n)`, for the record `rhsTDims`. -/
theorem rhsTDims_matmul_apply {φ₁ φ₂ : FTy} (wf : DotDims.WF ⟨2, ![a, b]⟩ ⟨2, ![c, b]⟩ ⟨2, ![a, c]⟩ [1] [1] [0] [0] [] [])
    (A : FVec Ideal ⟨2, ![a, b]⟩ φ₁) (B : FVec Ideal ⟨2, ![c, b]⟩ φ₂) (p : Fin a) (n : Fin c) :
    FloatOps.matmul (rhsTDims wf) none A B (constant ⟨2, ![a, c]⟩ .f32 0x00000000#32) (ix2 p n)
      = ∑ k : Fin b, A (ix2 p k) * B (ix2 n k) := by
  refine Cert.LibMatmulZero.matmul_zero_apply (rhsTDims wf) b rfl rfl A B (ix2 p n) (fun k => ix2 p k) (fun k => ix2 n k) ?_ ?_
  · intro k ax
    match ax with
    | ⟨0, _⟩ =>
      show ((rhsTDims wf).lhsIdx (ix2 p n) ((contrEquiv1 (rhsTDims wf) b rfl rfl).symm k) 0).val = p.val
      unfold DotDims.lhsIdx
      rw [dif_neg (show ¬(0 : Fin 2) ∈ (rhsTDims wf).lhsBatch from List.not_mem_nil),
        dif_pos (show (0 : Fin 2) ∈ (rhsTDims wf).lhsNonContracting from List.mem_singleton.mpr rfl)]
      rfl
    | ⟨1, _⟩ =>
      exact ((rhsTDims wf).lhsIdx_val_of_single rfl (ix2 p n) _).trans (contrEquiv1_symm_val (rhsTDims wf) b rfl rfl k)
  · intro k ax
    match ax with
    | ⟨0, _⟩ =>
      show ((rhsTDims wf).rhsIdx (ix2 p n) ((contrEquiv1 (rhsTDims wf) b rfl rfl).symm k) 0).val = n.val
      unfold DotDims.rhsIdx
      rw [dif_neg (show ¬(0 : Fin 2) ∈ (rhsTDims wf).rhsBatch from List.not_mem_nil),
        dif_pos (show (0 : Fin 2) ∈ (rhsTDims wf).rhsNonContracting from List.mem_singleton.mpr rfl)]
      rfl
    | ⟨1, _⟩ =>
      exact ((rhsTDims wf).rhsIdx_val_of_single rfl (ix2 p n) _).trans (contrEquiv1_symm_val (rhsTDims wf) b rfl rfl k)

/-- THE PRODUCT READ AT `(p, n)`, for any dimension-number record with the six lists of such a product (each
    hypothesis is `rfl` for a record written with those literal fields, whatever proves its `wf`). -/
theorem matmul_rhsT_apply {φ₁ φ₂ : FTy} (d : DotDims ⟨2, ![a, b]⟩ ⟨2, ![c, b]⟩ ⟨2, ![a, c]⟩)
    (hlc : d.lhsContracting = [1]) (hrc : d.rhsContracting = [1]) (hln : d.lhsNonContracting = [0])
    (hrn : d.rhsNonContracting = [0]) (hlb : d.lhsBatch = []) (hrb : d.rhsBatch = [])
    (A : FVec Ideal ⟨2, ![a, b]⟩ φ₁) (B : FVec Ideal ⟨2, ![c, b]⟩ φ₂) (p : Fin a) (n : Fin c) :
    FloatOps.matmul d none A B (constant ⟨2, ![a, c]⟩ .f32 0x00000000#32) (ix2 p n)
      = ∑ k : Fin b, A (ix2 p k) * B (ix2 n k) := by
  obtain ⟨lc, rc, ln, rn, lb, rb, wf⟩ := d
  dsimp only at hlc hrc hln hrn hlb hrb
  subst hlc hrc hln hrn hlb hrb
  exact rhsTDims_matmul_apply wf A B p n

end Cert.LibMatmulRhsT

end
-- ==== Proof.KernelPayload.lean ====
/-
  The body's arithmetic at one entry.

  The body is handed a block of 64 rows of the activations, the whole quantised weight matrix, the gain as one row
  and the weights' scale as a 1 × 1 array. Entry (p, n) of what it stores depends on row p of the block only: the row
  is normalised by its root mean square and scaled by the gain, quantised with the row's own scale, contracted with
  row n of the quantised weights, and the product is divided by the product of the two scales. This file reads the
  body's value at (p, n) as exactly that expression of row p, the gain row, weight row n and the weights' scale.
-/
import proofs.«123653_j6047313952927_1_alg».proof.Proof.Gen.KernelIdeal.Skeleton
import proofs.«123653_j6047313952927_1_alg».proof.Proof.RowQuant
import proofs.«123653_j6047313952927_1_alg».proof.Proof.LibColumn
import proofs.«123653_j6047313952927_1_alg».proof.Proof.LibRowOps
import proofs.«123653_j6047313952927_1_alg».proof.Proof.LibRowMax
import proofs.«123653_j6047313952927_1_alg».proof.Proof.LibMatmulRhsT
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen Cert.RowQuant

variable (x0 : Vec Ideal S64x4096 .f32) (v12 : Vec Ideal S1x4096 .f32)

/-- Row p of the block and the gain row, as functions of the position in the row. -/
abbrev rowOf (p : Fin 64) : Fin 4096 → EReal := fun k => x0 (ix2 p k)
abbrev gainOf : Fin 4096 → EReal := fun k => v12 (ix2 (0 : Fin 1) k)

/-- Each row's sum of squares. -/
def blkSumSq : FVec Ideal S64 .f32 :=
  multiReduction .add [1] S64
    (mulf (shapeCast S64x4096 x0 shapeCasts_S64x4096_S64x4096) (shapeCast S64x4096 x0 shapeCasts_S64x4096_S64x4096))
    0x00000000#32 reduces_S64x4096_S64 (.inl rfl) rfl

theorem blkSumSq_apply (p : Fin 64) : blkSumSq x0 (ix1 p) = sumSq (rowOf x0 p) := by
  unfold blkSumSq sumSq
  refine (Cert.LibRowOps.multiReduction_row_apply _ _ _ _ _ p).trans (Finset.sum_congr rfl fun k _ => ?_)
  rw [mulf_apply, shapeCast_self]

/-- One over each row's root mean square, as a column. -/
def blkInvRms : FVec Ideal S64x1 .f32 :=
  rsqrt (addf (divf (shapeCast S64x1 (blkSumSq x0) shapeCasts_S64_S64x1)
    (broadcast S64x1 (Scalar.ofBits .f32 0x45800000#32))) (broadcast S64x1 (Scalar.ofBits .f32 0x3727C5AC#32)))

theorem blkInvRms_apply (p : Fin 64) : blkInvRms x0 (ix2 p (0 : Fin 1)) = invRms (rowOf x0 p) := by
  have h : blkInvRms x0 (ix2 p (0 : Fin 1))
      = Ideal.rsqrt (Ideal.div (shapeCast S64x1 (blkSumSq x0) shapeCasts_S64_S64x1 (ix2 p (0 : Fin 1))) (lit 0x45800000#32)
          + lit 0x3727C5AC#32) := rfl
  rw [h, Cert.LibColumn.shapeCast_a_a1_apply, blkSumSq_apply]
  rfl

/-- The block's rows, each times one over its root mean square, times the gain. -/
def blkNormed : FVec Ideal S64x4096 .f32 :=
  mulf (mulf (shapeCast S64x4096 x0 shapeCasts_S64x4096_S64x4096)
      (broadcastTo S64x4096 (blkInvRms x0) broadcasts_S64x1_S64x4096))
    (broadcastTo S64x4096 (shapeCast S1x4096 v12 shapeCasts_S1x4096_S1x4096) broadcasts_S1x4096_S64x4096)

theorem blkNormed_apply (p : Fin 64) (k : Fin 4096) :
    blkNormed x0 v12 (ix2 p k) = normed (rowOf x0 p) (gainOf v12) k := by
  unfold blkNormed normed
  rw [mulf_apply, mulf_apply, shapeCast_self, shapeCast_self, Cert.LibColumn.broadcastTo_a1_ab_apply,
    broadcastTo_1b_ab_apply, blkInvRms_apply]

/-- Each row's largest absolute value. -/
def blkAbsMax : FVec Ideal S64 .f32 :=
  multiReduction .maximumf [1] S64 (absf (blkNormed x0 v12)) 0xFF800000#32 reduces_S64x4096_S64 (.inl rfl) rfl

theorem blkAbsMax_apply (p : Fin 64) : blkAbsMax x0 v12 (ix1 p) = absMax (rowOf x0 p) (gainOf v12) := by
  have hf : ∀ k : Fin 4096, absf (blkNormed x0 v12) (ix2 p k)
      = max (normed (rowOf x0 p) (gainOf v12) k) (-(normed (rowOf x0 p) (gainOf v12) k)) := fun k => by
    show FloatOps.absf (blkNormed x0 v12 (ix2 p k)) = _
    rw [blkNormed_apply]
    rfl
  unfold blkAbsMax absMax
  refine (Cert.LibRowMax.multiReduction_maximumf_row_apply _ _ _ _ _ p).trans ?_
  exact congrArg (fun f : Fin 4096 → EReal => Finset.univ.fold max (lit 0xFF800000#32) f) (funext hf)

/-- Each row's scale, as a column. -/
def blkScale : FVec Ideal S64x1 .f32 :=
  divf (broadcast S64x1 (Scalar.ofBits .f32 0x42FE0000#32))
    (maximumf (shapeCast S64x1 (blkAbsMax x0 v12) shapeCasts_S64_S64x1)
      (broadcast S64x1 (Scalar.ofBits .f32 0x3727C5AC#32)))

theorem blkScale_apply (p : Fin 64) :
    blkScale x0 v12 (ix2 p (0 : Fin 1)) = actScale (rowOf x0 p) (gainOf v12) := by
  unfold blkScale
  rw [divf_apply, maximumf_apply, broadcast_apply, broadcast_apply, Cert.LibColumn.shapeCast_a_a1_apply, blkAbsMax_apply]
  rfl

/-- The block quantised. -/
def blkQuant : FVec Ideal S64x4096 .bf16 :=
  truncf .bf16 (minimumf (broadcast S64x4096 (Scalar.ofBits .f32 0x42FE0000#32))
    (maximumf (broadcast S64x4096 (Scalar.ofBits .f32 0xC3000000#32))
      (roundeven (mulf (blkNormed x0 v12) (broadcastTo S64x4096 (blkScale x0 v12) broadcasts_S64x1_S64x4096)))))
    bitsLt_bf16_f32

theorem blkQuant_apply (p : Fin 64) (k : Fin 4096) :
    blkQuant x0 v12 (ix2 p k) = actQuant (rowOf x0 p) (gainOf v12) k := by
  unfold blkQuant
  rw [truncf_apply, minimumf_apply, maximumf_apply, broadcast_apply, broadcast_apply]
  show min _ (max _ (Ideal.liftRound Ideal.roundHalfEven (mulf (blkNormed x0 v12)
    (broadcastTo S64x4096 (blkScale x0 v12) broadcasts_S64x1_S64x4096) (ix2 p k)))) = _
  rw [mulf_apply, Cert.LibColumn.broadcastTo_a1_ab_apply, blkNormed_apply, blkScale_apply]
  rfl

/-- The body's value is the quantised block against the quantised weights, over the two scales. -/
theorem pay_eq (v31 : Vec Ideal S4096x4096 .bf16) (v34 : Vec Ideal S1x1 .f32) :
    k0_pay1 x0 v12 v31 v34
      = divf (matmul dot_S64x4096_S4096x4096_S64x4096_1_1_0_0_n_n none (blkQuant x0 v12)
          (shapeCast S4096x4096 v31 shapeCasts_S4096x4096_S4096x4096 : FVec Ideal S4096x4096 .bf16) (constant S64x4096 .f32 0x00000000#32))
        (broadcastTo S64x4096 (mulf (broadcastTo S64x1 (shapeCast S1x1 v34 shapeCasts_S1x1_S1x1 : FVec Ideal S1x1 .f32) broadcasts_S1x1_S64x1)
          (blkScale x0 v12)) broadcasts_S64x1_S64x4096) := rfl

/-- THE BODY AT (p, n). -/
theorem pay_apply (v31 : Vec Ideal S4096x4096 .bf16) (v34 : Vec Ideal S1x1 .f32) (p : Fin 64) (n : Fin 4096) :
    k0_pay1 x0 v12 v31 v34 (ix2 p n)
      = outEntry (rowOf x0 p) (gainOf v12) (fun k => v31 (ix2 n k)) (v34 (ix2 (0 : Fin 1) (0 : Fin 1))) := by
  rw [pay_eq]
  unfold outEntry
  rw [divf_apply, Cert.LibColumn.broadcastTo_a1_ab_apply, mulf_apply, blkScale_apply]
  refine congrArg₂ Ideal.div ?_ (congrArg (· * _) ?_)
  · refine (Cert.LibMatmulRhsT.matmul_rhsT_apply dot_S64x4096_S4096x4096_S64x4096_1_1_0_0_n_n rfl rfl rfl rfl rfl rfl
      (blkQuant x0 v12) _ p n).trans (Finset.sum_congr rfl fun k _ => ?_)
    rw [blkQuant_apply, shapeCast_self]
  · refine (broadcastTo_apply _ broadcasts_S1x1_S64x1 (ix2 p (0 : Fin 1)) (ix2 (0 : Fin 1) (0 : Fin 1)) fun ax => ?_).trans
      (congrFun (shapeCast_self v34 _) _)
    match ax with
    | ⟨0, _⟩ => rfl
    | ⟨1, _⟩ => rfl

end Cert.KernelIdeal.Payload

end
-- ==== Proof.LibMergeRows.lean ====
/-
  Two leading axes merged into one, and split again, read at an index; and one slab repeated along a new leading
  extent.

  A rank-3 array `[a, b, c]` reshaped to the matrix `[m, c]` (`m = a · b`) keeps the row-major order, so row
  `p · b + q` of the matrix is the array's row `(p, q)`; the reshape back reads the matrix the same way. A `[1, b, c]`
  slab broadcast to `[a, b, c]` has, at `(p, k, q)`, the slab's entry `(k, q)`. The three lemmas take the index by
  coordinates (`ix2`, `ix3`), so that they apply to a printed operation by unification.
-/
import Idealize.ShloMosaic.Lib.ValueIdx
import Idealize.ShloMosaic.Lib.Pipeline.Value

namespace Cert.LibMergeRows

open Idealize.ShloMosaic Idealize.ShloMosaic.ValueIdx

variable {α : Type}

/-- An `[a, b, c]` array cast to `[m, c]` reads, at `(r, e)` with `r = p · b + q`, the operand at `(p, q, e)`. -/
theorem shapeCast_abc_mc_apply {a b c m : ℕ} (x : (⟨3, ![a, b, c]⟩ : Shape).Idx → α)
    (h : (⟨3, ![a, b, c]⟩ : Shape).ShapeCasts ⟨2, ![m, c]⟩) (p : Fin a) (q : Fin b) (e : Fin c) (r : Fin m)
    (hr : r.val = p.val * b + q.val) :
    shapeCast ⟨2, ![m, c]⟩ x h (ix2 r e) = x (ix3 p q e) :=
  shapeCast_apply x h _ _ (by
    rw [Shape.rowMajor_val_three, Shape.rowMajor_val_two]
    show (p.val * b + q.val) * c + e.val = r.val * c + e.val
    rw [hr])

/-- An `[m, c]` matrix cast to `[a, b, c]` reads, at `(p, q, e)`, the operand's row `r = p · b + q` at `e`. -/
theorem shapeCast_mc_abc_apply {a b c m : ℕ} (x : (⟨2, ![m, c]⟩ : Shape).Idx → α)
    (h : (⟨2, ![m, c]⟩ : Shape).ShapeCasts ⟨3, ![a, b, c]⟩) (p : Fin a) (q : Fin b) (e : Fin c) (r : Fin m)
    (hr : r.val = p.val * b + q.val) :
    shapeCast ⟨3, ![a, b, c]⟩ x h (ix3 p q e) = x (ix2 r e) :=
  shapeCast_apply x h _ _ (by
    rw [Shape.rowMajor_val_three, Shape.rowMajor_val_two]
    show r.val * c + e.val = (p.val * b + q.val) * c + e.val
    rw [hr])

/-- A `[1, b, c]` slab broadcast to `[a, b, c]` reads, at `(p, k, q)`, the slab at `(0, k, q)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (k : Fin b) (q : Fin c) :
    broadcastTo ⟨3, ![a, b, c]⟩ v h (ix3 p k q) = v (ix3 (0 : Fin 1) k q) := by
  refine broadcastTo_apply v h (ix3 p k q) (ix3 (0 : Fin 1) k q) fun ax => ?_
  match ax with
  | ⟨0, _⟩ => rfl
  | ⟨1, _⟩ =>
    show k.val = if b = 1 then 0 else k.val
    split
    · have := k.isLt; omega
    · rfl
  | ⟨2, _⟩ =>
    show q.val = if c = 1 then 0 else q.val
    split
    · have := q.isLt; omega
    · rfl

end Cert.LibMergeRows
-- ==== Proof.KernelEntry.lean ====
/-
  What the region finds in the four arrays it reads.

  Before the region the host flattens the activations to 8192 rows, lays the gain out as one row, computes the
  weights' scale (one over the mean absolute weight, floored), puts it in a 1 × 1 array, and quantises the weights with
  it. This file states each of the four arrays as that function of the argument arrays and reads it at an index.
-/
import proofs.«123653_j6047313952927_1_alg».proof.Proof.Gen.KernelIdeal.Frame
import proofs.«123653_j6047313952927_1_alg».proof.Proof.RowQuant
import proofs.«123653_j6047313952927_1_alg».proof.Proof.LibMergeRows
import proofs.«123653_j6047313952927_1_alg».proof.Proof.LibRowOps
import Idealize.ShloMosaic.Lib.ValueIdx
import Idealize.ShloMosaic.Lib.ValueLayout
import Idealize.ShloMosaic.Lib.IdealHost
import Idealize.ShloMosaic.Lib.Pipeline.Value
import Idealize.ShloMosaic.Lib.StableHlo.Run
import Idealize.ShloMosaic.PureOps.Ideal.Laws

set_option maxRecDepth 16384

noncomputable section

namespace Cert.KernelIdeal.Entry

open Idealize.ShloMosaic Idealize.ShloMosaic.TcCoe Idealize.ShloMosaic.ValueIdx Idealize.ShloMosaic.StableHlo Idealize.SL.Sem
  Cert.KernelIdeal Cert.KernelIdeal.Gen Cert.RowQuant

/-- The weights' scale as the host computes it. -/
def hostScale (W : FVec Ideal S4096x4096 .f32) : FVec Ideal S_ .f32 :=
  Host.divf (constant S_ .f32 0x3F800000#32)
    (maximumf (Host.divf (Host.reduceAdd (Host.absf W) (constant S_ .f32 0x00000000#32) reducesTo_S4096x4096_S_d0_1 h_S_)
      (constant S_ .f32 0x4B800000#32)) (constant S_ .f32 0x3727C5AC#32))

/-- The weights quantised as the host computes them. -/
def hostQuant (W : FVec Ideal S4096x4096 .f32) : FVec Ideal S4096x4096 .bf16 :=
  truncf .bf16 (minimumf (broadcastInDim S4096x4096 ![] bcast_S_S4096x4096 (id (constant S_ .f32 0x3F800000#32)))
    (maximumf (broadcastInDim S4096x4096 ![] bcast_S_S4096x4096 (id (constant S_ .f32 0xBF800000#32)))
      (Host.roundeven (mulf W (broadcastInDim S4096x4096 ![] bcast_S_S4096x4096 (hostScale W)))))) bitsLt_bf16_f32

theorem hostScale_apply (W : FVec Ideal S4096x4096 .f32) (i : S_.Idx) : hostScale W i = wtScale W := by
  unfold hostScale
  rw [hostDivf_apply, maximumf_apply, hostDivf_apply, hostReduceAdd_apply,
    Ideal.hostReduceAdd_total reducesTo_S4096x4096_S_d0_1 (fun b => b.elim0)]
  rfl

theorem hostQuant_apply (W : FVec Ideal S4096x4096 .f32) (i : S4096x4096.Idx) : hostQuant W i = wtQuant W i := by
  unfold hostQuant
  rw [truncf_apply, minimumf_apply, maximumf_apply, Cert.LibRowOps.broadcastInDim_scalar_apply,
    Cert.LibRowOps.broadcastInDim_scalar_apply]
  show min _ (max _ (Ideal.liftRound Ideal.roundHalfEven (mulf W (broadcastInDim S4096x4096 ![] bcast_S_S4096x4096 (hostScale W)) i))) = _
  rw [mulf_apply, Cert.LibRowOps.broadcastInDim_scalar_apply, hostScale_apply]
  rfl

variable (m : (ℓ : Loc nD τ sig) → Buf (Elt Ideal) ℓ) (c : Dev nD)

/-- The three argument arrays on core c. -/
abbrev argX : FVec Ideal S4x2048x4096 .f32 := m ((c : Thread nD τ).loc main_arg0)
abbrev argW : FVec Ideal S4096x4096 .f32 := m ((c : Thread nD τ).loc main_arg1)
abbrev argG : FVec Ideal S4096 .f32 := m ((c : Thread nD τ).loc main_arg2)

theorem V_rows : (V m c main_v12 : S8192x4096.Idx → EReal)
    = shapeCast S8192x4096 (argX m c) shapeCasts_S4x2048x4096_S8192x4096 := by
  dsimp only [V, V0]
  simp only [hostOps0, hostOps0_1, hostOps0_2, hostOps0_3, hostOps0_4, List.flatten_cons, List.flatten_nil, List.append_nil,
    List.cons_append, List.nil_append]
  after_results
  rfl

theorem V_gain : (V m c main_v11 : S1x4096.Idx → EReal)
    = shapeCast S1x4096 (argG m c) shapeCasts_S4096_S1x4096 := by
  dsimp only [V, V0]
  simp only [hostOps0, hostOps0_1, hostOps0_2, hostOps0_3, hostOps0_4, List.flatten_cons, List.flatten_nil, List.append_nil,
    List.cons_append, List.nil_append]
  after_results
  rfl

theorem V_scale : (V m c main_v10 : S1x1.Idx → EReal)
    = shapeCast S1x1 (hostScale (argW m c)) shapeCasts_S_S1x1 := by
  dsimp only [V, V0]
  simp only [hostOps0, hostOps0_1, hostOps0_2, hostOps0_3, hostOps0_4, List.flatten_cons, List.flatten_nil, List.append_nil,
    List.cons_append, List.nil_append]
  after_results
  rfl

theorem V_quant : (V m c main_v9 : S4096x4096.Idx → EReal) = hostQuant (argW m c) := by
  dsimp only [V, V0]
  simp only [hostOps0, hostOps0_1, hostOps0_2, hostOps0_3, hostOps0_4, List.flatten_cons, List.flatten_nil, List.append_nil,
    List.cons_append, List.nil_append]
  after_results
  rfl

/-- Row r = b · 2048 + s of the flattened activations is row (b, s). -/
theorem V_rows_apply (b : Fin 4) (s : Fin 2048) (r : Fin 8192) (hr : r.val = b.val * 2048 + s.val) (k : Fin 4096) :
    V m c main_v12 (ix2 r k) = argX m c (ix3 b s k) := by
  rw [V_rows]
  exact Cert.LibMergeRows.shapeCast_abc_mc_apply _ _ b s k r hr

theorem V_gain_apply (k : Fin 4096) : V m c main_v11 (ix2 (0 : Fin 1) k) = argG m c (ix1 k) := by
  rw [V_gain]
  exact shapeCast_a_1a_apply _ _ (0 : Fin 1) k

theorem V_scale_apply : V m c main_v10 (ix2 (0 : Fin 1) (0 : Fin 1)) = wtScale (argW m c) := by
  rw [V_scale]
  refine (shapeCast_apply _ shapeCasts_S_S1x1 _ ix0 ?_).trans (hostScale_apply _ _)
  rfl

theorem V_quant_apply (i : S4096x4096.Idx) : V m c main_v9 i = wtQuant (argW m c) i := by
  rw [V_quant, hostQuant_apply]

end Cert.KernelIdeal.Entry

end
-- ==== Proof.KernelWhole.lean ====
/-
  From the blocks to the whole result.

  Grid point t hands the body rows 64·t … 64·t + 63 of the flattened activations and the whole of the other three
  arrays, and writes back the same rows of the output; the 128 points cover all 8192 rows. So the output array ends
  holding, at (r, n), the layer's expression of row r of the flattened activations — and the host's last step only
  regroups the rows as (b, s) with r = 2048·b + s.
-/
import proofs.«123653_j6047313952927_1_alg».proof.Proof.Gen.KernelIdeal.Frame
import proofs.«123653_j6047313952927_1_alg».proof.Proof.RowQuant
import proofs.«123653_j6047313952927_1_alg».proof.Proof.KernelPayload
import proofs.«123653_j6047313952927_1_alg».proof.Proof.KernelEntry
import proofs.«123653_j6047313952927_1_alg».proof.Proof.LibMergeRows
import Idealize.ShloMosaic.Lib.ValueIdx
import Idealize.ShloMosaic.Lib.Pipeline.Value
import Idealize.ShloMosaic.Lib.StableHlo.Run

set_option maxRecDepth 16384

noncomputable section

namespace Cert.KernelIdeal.Whole

open Idealize.ShloMosaic Idealize.ShloMosaic.TcCoe Idealize.ShloMosaic.ValueIdx Idealize.ShloMosaic.StableHlo Idealize.SL.Sem
  Cert.KernelIdeal Cert.KernelIdeal.Gen Cert.KernelIdeal.Entry Cert.KernelIdeal.Payload Cert.RowQuant
open Idealize.ShloMosaic.Pipeline (Dat)

variable (m : (ℓ : Loc nD τ sig) → Buf (Elt Ideal) ℓ) (ρ : Dev nD → PrngReg)

theorem offsets_zero : (![0, 0] : Fin 2 → Nat) = fun _ => 0 := funext fun a => by fin_cases a <;> rfl

/-- The region's output array, entry by entry, from the four arrays the region reads. -/
def rowsOut (c : Dev nD) : S8192x4096.Idx → EReal := fun i =>
  outEntry (fun k => V m c main_v12 (ix2 (i 0) k)) (fun k => V m c main_v11 (ix2 (0 : Fin 1) k))
    (fun k => V m c main_v9 (ix2 (i 1) k)) (V m c main_v10 (ix2 (0 : Fin 1) (0 : Fin 1)))

/-- The block indices of the five windows at a grid point: the activations' and the output's blocks are block t of
    the rows, the other three windows have one block. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point t writes back is block t of the output function. -/
theorem flushed_eq (c : Dev nD) (t : Fin cfg0.N) :
    (dats m 0 c).flushed 4 t = ((cfg0.win 4).blk t).view.read (Elt Ideal) (rowsOut m c) := by
  show (cfg0.win 4).cut (grid0.coords t) ((dats m 0 c).after 4 t) = _
  rw [after0_4]
  unfold out0_4
  rw [View.canon_unit_zero offsets_zero]
  simp only [View.ld_unit_zero (S := S64x4096) offsets_zero, View.ld_unit_zero (S := S1x4096) offsets_zero,
    View.ld_unit_zero (S := S4096x4096) offsets_zero, View.ld_unit_zero (S := S1x1) offsets_zero]
  obtain ⟨e00, e01, e10, e11, e20, e21, e30, e31, e40, e41⟩ := block_indices t
  funext j
  obtain ⟨p, n, rfl⟩ : ∃ (p : Fin 64) (n : Fin 4096), j = ix2 p n := ⟨j 0, j 1, eq_ix2 j⟩
  show k0_pay1 (iblk m c 0 t) (iblk m c 2 t) (iblk m c 1 t) (iblk m c 3 t) (ix2 p n)
    = rowsOut m c (((cfg0.win 4).blk t).view.emb (ix2 p n))
  refine (pay_apply (iblk m c 0 t) (iblk m c 2 t) (iblk m c 1 t) (iblk m c 3 t) p n).trans ?_
  have ha : ∀ k : Fin 4096, iblk m c 0 t (ix2 p k)
      = V m c main_v12 (ix2 ((((cfg0.win 4).blk t).view.emb (ix2 p n)) 0) k) := fun k => by
    show V m c main_v12 (((cfg0.win 0).blk t).view.emb (ix2 p k)) = _
    refine congrArg (V m c main_v12) (funext fun a => Fin.ext ?_)
    match a with
    | ⟨0, _⟩ =>
      show win0_0.index t (0 : Fin 2) * 64 + 1 * p.val = win0_4.index t (0 : Fin 2) * 64 + 1 * p.val
      omega
    | ⟨1, _⟩ =>
      show win0_0.index t (1 : Fin 2) * 4096 + 1 * k.val = k.val
      omega
  have hb : ∀ k : Fin 4096, iblk m c 2 t (ix2 (0 : Fin 1) k) = V m c main_v11 (ix2 (0 : Fin 1) k) := fun k => by
    show V m c main_v11 (((cfg0.win 2).blk t).view.emb (ix2 (0 : Fin 1) k)) = _
    refine congrArg (V m c main_v11) (funext fun a => Fin.ext ?_)
    match a with
    | ⟨0, _⟩ =>
      show win0_2.index t (0 : Fin 2) * 1 + 1 * 0 = 0
      omega
    | ⟨1, _⟩ =>
      show win0_2.index t (1 : Fin 2) * 4096 + 1 * k.val = k.val
      omega
  have hc : ∀ k : Fin 4096, iblk m c 1 t (ix2 n k)
      = V m c main_v9 (ix2 ((((cfg0.win 4).blk t).view.emb (ix2 p n)) 1) k) := fun k => by
    show V m c main_v9 (((cfg0.win 1).blk t).view.emb (ix2 n k)) = _
    refine congrArg (V m c main_v9) (funext fun a => Fin.ext ?_)
    match a with
    | ⟨0, _⟩ =>
      show win0_1.index t (0 : Fin 2) * 4096 + 1 * n.val = win0_4.index t (1 : Fin 2) * 4096 + 1 * n.val
      omega
    | ⟨1, _⟩ =>
      show win0_1.index t (1 : Fin 2) * 4096 + 1 * k.val = k.val
      omega
  have hd : iblk m c 3 t (ix2 (0 : Fin 1) (0 : Fin 1)) = V m c main_v10 (ix2 (0 : Fin 1) (0 : Fin 1)) := by
    show V m c main_v10 (((cfg0.win 3).blk t).view.emb (ix2 (0 : Fin 1) (0 : Fin 1))) = _
    refine congrArg (V m c main_v10) (funext fun a => Fin.ext ?_)
    match a with
    | ⟨0, _⟩ =>
      show win0_3.index t (0 : Fin 2) * 1 + 1 * 0 = 0
      omega
    | ⟨1, _⟩ =>
      show win0_3.index t (1 : Fin 2) * 1 + 1 * 0 = 0
      omega
  unfold rowsOut
  exact congr (congr (congr (congrArg outEntry (funext ha)) (funext hb)) (funext hc)) hd

/-- An index of the output array is in point t's block iff each coordinate is in the block's range. -/
theorem mem_blk (t : Fin cfg0.N) (i : S8192x4096.Idx) :
    i ∈ ((cfg0.win 4).blk t).view.set ↔ ∀ a : Fin 2, win0_4.index t a * S64x4096.size a ≤ (i a).val
      ∧ (i a).val < win0_4.index t a * S64x4096.size a + S64x4096.size a := by
  show i ∈ ((View.whole main_v13).slice (win0_4.rect t)).set ↔ _
  rw [View.set_slice_whole, Rect.mem_set_unit]
  exact Iff.rfl

/-- Every row of the output is in the block of the point its number divided by 64 names. -/
theorem cover (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  have hN : cfg0.N = 128 := N_0
  obtain ⟨t, ht⟩ : ∃ t : Fin cfg0.N, t.val = (i 0).val / 64 := ⟨⟨(i 0).val / 64, by rw [hN]; omega⟩, rfl⟩
  obtain ⟨-, -, -, -, -, -, -, -, e40, e41⟩ := block_indices t
  refine ⟨t, flush0_4 t, ?_⟩
  rw [mem_blk]
  intro a
  match a with
  | ⟨0, _⟩ =>
    show win0_4.index t (0 : Fin 2) * 64 ≤ (i 0).val ∧ (i 0).val < win0_4.index t (0 : Fin 2) * 64 + 64
    omega
  | ⟨1, _⟩ =>
    show win0_4.index t (1 : Fin 2) * 4096 ≤ (i 1).val ∧ (i 1).val < win0_4.index t (1 : Fin 2) * 4096 + 4096
    omega

/-- The output array after the run. -/
theorem final (c : Dev nD) : (dats m 0 c).arrAt 4 cfg0.N = rowsOut m c :=
  (dats m 0 c).arrAt_eq_of_cover 4 (rowsOut m c) (fun t _ => flushed_eq m c t) (cover)

/-- Row r = 2048·b + s of the output, at n, is the layer's result at (b, s, n). -/
theorem rowsOut_apply (c : Dev nD) (b : Fin 4) (s : Fin 2048) (n : Fin 4096) (r : Fin 8192)
    (hr : r.val = b.val * 2048 + s.val) :
    rowsOut m c (ix2 r n) = result (argX m c) (argW m c) (argG m c) (ix3 b s n) := by
  show outEntry (fun k => V m c main_v12 (ix2 r k)) (fun k => V m c main_v11 (ix2 (0 : Fin 1) k))
      (fun k => V m c main_v9 (ix2 n k)) (V m c main_v10 (ix2 (0 : Fin 1) (0 : Fin 1)))
    = outEntry (fun k => argX m c (ix3 b s k)) (fun k => argG m c (ix1 k)) (fun k => wtQuant (argW m c) (ix2 n k))
        (wtScale (argW m c))
  exact congr (congr (congr (congrArg outEntry (funext fun k => V_rows_apply m c b s r hr k))
    (funext fun k => V_gain_apply m c k)) (funext fun k => V_quant_apply m c _)) (V_scale_apply m c)

/-- The program's result: the host's last step regroups the output's rows. -/
theorem tail_result (c : Dev nD) :
    Pipeline.afterTail₀ cfgs (dats m) 0 (V0 m) [hostOps1] c main_v14 = result (argX m c) (argW m c) (argG m c) := by
  have hw := (Pipeline.withArrays_arr spec0 launch0.win.arr_inj c (V0 m c) (fun w => (dats m 0 c).arrAt w cfg0.N) 4).trans
    (final m c)
  unfold Pipeline.afterTail₀
  show StableHlo.after hostOps1 _ (Proc.devRef .tc main_v14) = _
  after_results
  funext i
  obtain ⟨b, s, n, rfl⟩ : ∃ (b : Fin 4) (s : Fin 2048) (n : Fin 4096), i = ix3 b s n := ⟨i 0, i 1, i 2, eq_ix3 i⟩
  have hlt : b.val * 2048 + s.val < 8192 := by have := b.isLt; have := s.isLt; omega
  refine (Cert.LibMergeRows.shapeCast_mc_abc_apply _ shapeCasts_S8192x4096_S4x2048x4096 b s n ⟨b.val * 2048 + s.val, hlt⟩ rfl).trans ?_
  refine (congrFun hw _).trans ?_
  exact rowsOut_apply m c b s n _ rfl

/-- The run, read: the result buffer holds the layer's result of the argument arrays, which end unchanged. -/
theorem run : θ_run defs (onTc (τ := τ) (main (F := Ideal))) ⟨m, fun _ => 0, ρ⟩ fun r => ∀ c : Dev nD,
      r.2.mem ((c.tc : Thread nD τ).loc main_v14) = result (argX m c) (argW m c) (argG m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v14 (Pipeline.mem_restRefs_of main_v14 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Whole

end
-- ==== Proof.RefValue.lean ====
/-
  The reference, read at an index.

  The reference normalises, quantises and multiplies whole arrays. Read at the index (b, s, n) its result is the layer's
  expression of row (b, s) of the activations, the gain, row n of the weights and the weights' scale. Two of its steps
  add a scaled value to "the rounded and clipped value minus the scaled value": for finite inputs the scaled value is a
  real number, so the step returns the rounded and clipped value. That is the only place the inputs' finiteness is used.
-/
import proofs.«123653_j6047313952927_1_alg».proof.Proof.Gen.ReferenceIdeal.Read
import proofs.«123653_j6047313952927_1_alg».proof.Proof.RowQuant
import proofs.«123653_j6047313952927_1_alg».proof.Proof.LibRealValued
import proofs.«123653_j6047313952927_1_alg».proof.Proof.LibRowMax
import Idealize.ShloMosaic.Lib.ValueIdx
import Idealize.ShloMosaic.PureOps.Ideal.Laws
import Idealize.ShloMosaic.PureOps.Reduce

noncomputable section

namespace Cert.ReferenceIdeal.RefValue

open Idealize.ShloMosaic Idealize.ShloMosaic.ValueIdx Cert.ReferenceIdeal Cert.ReferenceIdeal.Gen Cert.ReferenceIdeal.Read
  Cert.RowQuant Cert.LibRealValued

variable (x : (⟨S4x2048x4096, .f32⟩ : BufTy).Contents (Elt Ideal)) (W : (⟨S4096x4096, .f32⟩ : BufTy).Contents (Elt Ideal))
  (g : (⟨S4096, .f32⟩ : BufTy).Contents (Elt Ideal))

/-- Row (b, s) of the activations and the gain, as functions of the position in the row. -/
abbrev rowAt (b : Fin 4) (s : Fin 2048) : Fin 4096 → EReal := fun k => x (ix3 b s k)
abbrev gain : Fin 4096 → EReal := fun k => g (ix1 k)

/-! ## The activations -/

theorem normed_apply (b : Fin 4) (s : Fin 2048) (k : Fin 4096) :
    val_main_v12 x g (ix3 b s k) = normed (rowAt x b s) (gain g) k := by
  have e1 : ∀ k', idx_main_v1 (idx_main_v2 (idx_main_v8 (ix3 b s k))) k' = ix3 b s k' := fun k' =>
    funext fun a => Fin.ext (by match a with | ⟨0, _⟩ => rfl | ⟨1, _⟩ => rfl | ⟨2, _⟩ => rfl)
  have e2 : idx_main_v10 (idx_main_v11 (ix3 b s k)) = ix1 k :=
    funext fun a => Fin.ext (by match a with | ⟨0, _⟩ => rfl)
  rw [val_main_v12_apply, val_main_v9_apply, val_main_v8_apply, val_main_v7_apply, val_main_v6_apply, val_main_v4_apply,
    val_main_v2_apply, val_main_v1_apply, val_main_v11_apply, val_main_v10_apply]
  simp only [e1, e2, val_main_cst_apply, Ideal.ofBits_def, Ideal.ofBits_zero_f32, zero_add]
  rfl

theorem absMax_apply (b : Fin 4) (s : Fin 2048) :
    val_main_v27 x g (ix2 b s) = absMax (rowAt x b s) (gain g) := by
  have hred : S4x2048x4096.Reduces [2] S4x2048 := by decide
  have hf : ∀ k : Fin 4096, val_main_v26 (F := Ideal) x g (ix3 b s k)
      = max (normed (rowAt x b s) (gain g) k) (-(normed (rowAt x b s) (gain g) k)) := fun k => by
    rw [val_main_v26_apply, normed_apply]
    rfl
  unfold val_main_v27 absMax
  refine (Cert.LibRowMax.hostReduce_maximumf_last_apply _ _ reducesTo_S4x2048x4096_S4x2048_d2 hred h_S_ b s).trans ?_
  exact congrArg (fun f : Fin 4096 → EReal => Finset.univ.fold max (lit 0xFF800000#32) f) (funext hf)

theorem scale_apply (b : Fin 4) (s : Fin 2048) (u : Fin 1) :
    val_main_v32 x g (ix3 b s u) = actScale (rowAt x b s) (gain g) := by
  have e : idx_main_v28 (ix3 b s u) = ix2 b s :=
    funext fun a => Fin.ext (by match a with | ⟨0, _⟩ => rfl | ⟨1, _⟩ => rfl)
  rw [val_main_v32_apply, val_main_v30_apply, val_main_v28_apply, e, absMax_apply]
  rfl

/-- The quantised activations, for a finite row and gain: the straight-through step returns the quantised value. -/
theorem quant_apply (b : Fin 4) (s : Fin 2048) (k : Fin 4096)
    (hx : ∀ i, IsReal (x i)) (hg : ∀ i, IsReal (g i)) :
    val_main_v40 x g (ix3 b s k) = actQuant (rowAt x b s) (gain g) k := by
  have e : idx_main_v37 (ix3 b s k) = ix3 b s (0 : Fin 1) :=
    funext fun a => Fin.ext (by match a with | ⟨0, _⟩ => rfl | ⟨1, _⟩ => rfl | ⟨2, _⟩ => rfl)
  have e' : idx_main_v33 (ix3 b s k) = ix3 b s (0 : Fin 1) :=
    funext fun a => Fin.ext (by match a with | ⟨0, _⟩ => rfl | ⟨1, _⟩ => rfl | ⟨2, _⟩ => rfl)
  have hraw : val_main_v38 x g (ix3 b s k) = normed (rowAt x b s) (gain g) k * actScale (rowAt x b s) (gain g) := by
    rw [val_main_v38_apply, val_main_v37_apply, e, normed_apply, scale_apply]
    rfl
  have hq : val_main_v36 x g (ix3 b s k) = actQuant (rowAt x b s) (gain g) k := by
    rw [val_main_v36_apply, val_main_call3_v2_apply, val_main_v35_apply, val_main_v34_apply, val_main_v33_apply, e',
      normed_apply, scale_apply, val_main_call3_v4_apply, val_main_call3_v1_apply]
    rfl
  rw [val_main_v40_apply, val_main_v39_apply, hraw, hq]
  exact add_sub_cancel_real (actRaw_real _ _ (fun k => hx _) (fun k => hg _) k) _

/-! ## The weights -/

theorem wscale_apply (i : S_.Idx) : val_main_v17 W i = wtScale W := by
  rw [val_main_v17_apply, val_main_v16_apply, val_main_v15_apply, val_main_v14_apply]
  rfl

theorem wquant_apply (i : S4096x4096.Idx) (hW : ∀ i, IsReal (W i)) : val_main_v25 W i = wtQuant W i := by
  have hraw : val_main_v23 W i = W i * wtScale W := by
    rw [val_main_v23_apply, val_main_v22_apply, wscale_apply]
    rfl
  have hq : val_main_v21 W i = wtQuant W i := by
    rw [val_main_v21_apply, val_main_call1_v2_apply, val_main_v20_apply, val_main_v19_apply, val_main_v18_apply,
      wscale_apply, val_main_call1_v4_apply, val_main_call1_v1_apply]
    rfl
  rw [val_main_v25_apply, val_main_v24_apply, hraw, hq]
  exact add_sub_cancel_real (wtRaw_real W hW i) _

/-! ## The result -/

theorem result_apply (hx : ∀ i, IsReal (x i)) (hW : ∀ i, IsReal (W i)) (hg : ∀ i, IsReal (g i)) :
    val_main_v45 x W g = result x W g := by
  funext i
  obtain ⟨b, s, n, rfl⟩ : ∃ (b : Fin 4) (s : Fin 2048) (n : Fin 4096), i = ix3 b s n := ⟨i 0, i 1, i 2, eq_ix3 i⟩
  have el : ∀ k, lidx_main_v41 (ix3 b s n) k = ix3 b s k := fun k =>
    funext fun a => Fin.ext (by match a with | ⟨0, _⟩ => rfl | ⟨1, _⟩ => rfl | ⟨2, _⟩ => rfl)
  have er : ∀ k, ridx_main_v41 (ix3 b s n) k = ix2 n k := fun k =>
    funext fun a => Fin.ext (by match a with | ⟨0, _⟩ => rfl | ⟨1, _⟩ => rfl)
  have e44 : idx_main_v44 (ix3 b s n) = ix3 b s (0 : Fin 1) :=
    funext fun a => Fin.ext (by match a with | ⟨0, _⟩ => rfl | ⟨1, _⟩ => rfl | ⟨2, _⟩ => rfl)
  rw [val_main_v45_apply, val_main_v41_apply, val_main_v44_apply, val_main_v43_apply, val_main_v42_apply, e44,
    wscale_apply, scale_apply]
  simp only [el, er, quant_apply x g b s _ hx hg, wquant_apply W _ hW]
  rfl

end Cert.ReferenceIdeal.RefValue

end
-- ==== Proof.Finite.lean ====
/-
  The precondition, read back: every entry of the three argument arrays is a real number.

  The precondition says, for each argument array, that every entry's absolute value compares below +∞, and conjoins the
  three statements. An extended real whose absolute value is below +∞ is neither infinity, hence a real.
-/
import proofs.«123653_j6047313952927_1_alg».proof.Pre_finite_inputs
import proofs.«123653_j6047313952927_1_alg».proof.Proof.LibRealValued
import Idealize.ShloMosaic.Lib.ReduceAll
import Idealize.ShloMosaic.Lib.ValueIdx
import Idealize.ShloMosaic.PureOps.Ideal

noncomputable section

namespace Cert.Finite

open Idealize.ShloMosaic Idealize.ShloMosaic.ValueIdx Cert.LibRealValued Cert.Pre_finite_inputs

instance : Subsingleton S_.Idx := ⟨fun _ _ => funext fun d => d.elim0⟩

variable [Cert.Pre_finite_inputs.Facts]

/-- Under the precondition every entry of every argument array is real. -/
theorem reals_of_pre (x : FVec Ideal S4x2048x4096 .f32) (W : FVec Ideal S4096x4096 .f32) (g : FVec Ideal S4096 .f32)
    (h : Cert.Pre_finite_inputs.fn (F := Ideal) x W g = fun _ => 1#1) :
    (∀ i, IsReal (x i)) ∧ (∀ i, IsReal (W i)) ∧ (∀ i, IsReal (g i)) := by
  have h0 := congrFun h ix0
  dsimp only [Cert.Pre_finite_inputs.fn] at h0
  obtain ⟨h01, h2⟩ := IntOp.andi_eq_one.1 h0
  obtain ⟨hx, hW⟩ := IntOp.andi_eq_one.1 h01
  exact ⟨fun i => real_of_abs_lt_inf _ (Host.reduce_andi_all _ _ _ _ ix0 hx i),
    fun i => real_of_abs_lt_inf _ (Host.reduce_andi_all _ _ _ _ ix0 hW i),
    fun i => real_of_abs_lt_inf _ (Host.reduce_andi_all _ _ _ _ ix0 h2 i)⟩

end Cert.Finite

end
-- ==== Proof.lean ====
/-
  A linear layer with quantised operands, against its plain-array reference, on the extended reals.

  Both programs normalise each row of the activations by its root mean square and scale it by a gain; quantise the
  normalised row to integers in [-128, 127] with the row's own scale 127 / max(|row|, ε); quantise the weights to
  {-1, 0, 1} with the one scale 1 / max(mean|W|, ε); multiply the quantised matrices; and divide each entry by the
  product of the two scales. The kernel does this 64 rows at a time over a grid of 128 points, with the weights
  quantised on the host beforehand; the reference does it on whole arrays and writes each quantisation as
  "scaled value + (quantised value − scaled value)".

  On the extended reals the two agree entry by entry: sums, products, maxima and quotients are the same expressions
  on both sides (a change of float format is the identity, a matrix product is the sum of the exact products), and the
  reference's "v + (q − v)" is q because v, a product of finite inputs and finite scales, is a real number — the one
  place the precondition (every input entry finite) is used. The files: RowQuant (the layer's expression and the
  realness facts), KernelPayload (the body at an entry), KernelEntry (the arrays the region reads), KernelWhole (blocks
  to the whole result, and the run), RefValue (the reference at an index), Finite (the precondition read back).
-/
import proofs.«123653_j6047313952927_1_alg».proof.Defs
import proofs.«123653_j6047313952927_1_alg».proof.Proof.Gen.Kernel
import proofs.«123653_j6047313952927_1_alg».proof.Proof.Gen.Kernel.Skeleton
import proofs.«123653_j6047313952927_1_alg».proof.Proof.Gen.Kernel.Launch
import proofs.«123653_j6047313952927_1_alg».proof.Proof.Gen.Kernel.Points
import proofs.«123653_j6047313952927_1_alg».proof.Proof.Gen.Kernel.Frame
import proofs.«123653_j6047313952927_1_alg».proof.Proof.Gen.KernelIdeal
import proofs.«123653_j6047313952927_1_alg».proof.Proof.Gen.KernelIdeal.Skeleton
import proofs.«123653_j6047313952927_1_alg».proof.Proof.Gen.KernelIdeal.Launch
import proofs.«123653_j6047313952927_1_alg».proof.Proof.Gen.KernelIdeal.Points
import proofs.«123653_j6047313952927_1_alg».proof.Proof.Gen.KernelIdeal.Frame
import proofs.«123653_j6047313952927_1_alg».proof.Proof.Gen.ReferenceIdeal
import proofs.«123653_j6047313952927_1_alg».proof.Proof.Gen.Pre_finite_inputs
import proofs.«123653_j6047313952927_1_alg».proof.Proof.Gen.ReferenceIdeal.Run
import proofs.«123653_j6047313952927_1_alg».proof.Proof.Gen.ReferenceIdeal.Read
import proofs.«123653_j6047313952927_1_alg».proof.Proof.RowQuant
import proofs.«123653_j6047313952927_1_alg».proof.Proof.KernelWhole
import proofs.«123653_j6047313952927_1_alg».proof.Proof.RefValue
import proofs.«123653_j6047313952927_1_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both programs end with the layer's result of the argument arrays: the kernel by its run read block by block, the
    reference by its run read index by index, under the inputs' finiteness. -/
theorem algebraic : Cert.algebraic_KernelIdeal_ReferenceIdeal := by
  intro m ρ m' ρ' hpre hagree
  refine ⟨fun c => Cert.RowQuant.result (Cert.KernelIdeal.Entry.argX m c) (Cert.KernelIdeal.Entry.argW m c)
    (Cert.KernelIdeal.Entry.argG m c), Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hW, hg⟩ := Cert.Finite.reals_of_pre _ _ _ (hpre c)
  rw [Cert.ReferenceIdeal.Read.val_main_v45_eq, (hagree c).1, (hagree c).2.1, (hagree c).2.2]
  exact Cert.ReferenceIdeal.RefValue.result_apply _ _ _ hx hW hg

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
